-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The result both programs compute, as one function of the four argument arrays, index by index on the
  extended reals:
      out[t, o] = (sum over k < 4096 of x[t, k] * w[o, k]) * s[o] + b[o],
  and the two laws that join the programs to it.
  * The kernel sums the 4096 products in 16 consecutive slabs of 256: a sum over the slabs of the sums inside
    each slab is the whole sum (only commutativity and associativity of +, so it holds on the extended reals as
    it stands).
  * The reference scales each weight before multiplying: sum_k x[t, k] * (w[o, k] * s[o]). Pulling the factor s[o]
    out of the sum is distributivity, which fails on the extended reals at infinities; it holds when every
    entry is a real number, which is what the precondition (every input finite) provides.
-/
import Idealize.ShloMosaic.PureOps.Ideal
import Idealize.ShloMosaic.Lib.ValueIdx

noncomputable section

namespace Cert.QLinear

open Idealize.ShloMosaic Idealize.ShloMosaic.ValueIdx

/-- A 4096 x 4096 array of extended reals, and a length-4096 one. -/
abbrev Mat : Type := (⟨2, ![4096, 4096]⟩ : Shape).Idx → EReal
abbrev Row : Type := (⟨1, ![4096]⟩ : Shape).Idx → EReal

/-- The specification: the product of x with the transpose of w, each column o scaled by s[o] and shifted by b[o]. -/
def qlinear (x w : Mat) (s b : Row) : Mat := fun j =>
  (∑ k : Fin 4096, x (ix2 (j 0) k) * w (ix2 (j 1) k)) * s (ix1 (j 1)) + b (ix1 (j 1))

/-- Every entry of the array is a real number (neither infinity). -/
def IsReal {ι : Type} (f : ι → EReal) : Prop := ∀ i, ∃ r : ℝ, f i = (r : EReal)

/-! ## A sum in consecutive slabs -/

/-- Summing `n` consecutive slabs of length `J`, slab by slab, is summing the first `J * n` terms. -/
theorem sum_range_slabs {M : Type} [AddCommMonoid M] (f : ℕ → M) (J : ℕ) :
    ∀ n : ℕ, ∑ s ∈ Finset.range n, ∑ r ∈ Finset.range J, f (J * s + r) = ∑ k ∈ Finset.range (J * n), f k
  | 0 => by simp
  | n + 1 => by
    rw [Finset.sum_range_succ, sum_range_slabs f J n, Nat.mul_succ, Finset.sum_range_add]

/-- The same with the inner index and the whole index in `Fin`: 16 slabs of 256 make 4096. -/
theorem sum_slabs (f : ℕ → EReal) :
    ∑ s ∈ Finset.range 16, ∑ r : Fin 256, f (256 * s + r.val) = ∑ k : Fin 4096, f k.val := by
  rw [Fin.sum_univ_eq_sum_range (fun k => f k) 4096, ← sum_range_slabs f 256 16]
  exact Finset.sum_congr rfl fun s _ => Fin.sum_univ_eq_sum_range (fun r => f (256 * s + r)) 256

/-! ## A real scale leaves a real sum -/

/-- The coercion of the reals into the extended reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- For real a, b, s: sum_k a_k * (b_k * s) = (sum_k a_k * b_k) * s, read in the extended reals. -/
theorem sum_mul_scale {ι : Type} [Fintype ι] (a b : ι → ℝ) (s : ℝ) :
    ∑ k, (a k : EReal) * ((b k : EReal) * (s : EReal)) = (∑ k, (a k : EReal) * (b k : EReal)) * (s : EReal) := by
  simp only [← EReal.coe_mul]
  rw [← coe_sum, ← coe_sum, ← EReal.coe_mul, Finset.sum_mul]
  exact congrArg _ (Finset.sum_congr rfl fun k _ => by ring)

/-- Row t of x against row o of w scaled entry by entry by s[o] is the unscaled product scaled once, when
    every entry is real. -/
theorem scale_out (x w : Mat) (s : Row) (hx : IsReal x) (hw : IsReal w) (hs : IsReal s) (t o : Fin 4096) :
    ∑ k : Fin 4096, x (ix2 t k) * (w (ix2 o k) * s (ix1 o))
      = (∑ k : Fin 4096, x (ix2 t k) * w (ix2 o k)) * s (ix1 o) := by
  choose x' hx' using hx
  choose w' hw' using hw
  obtain ⟨s', hs'⟩ := hs (ix1 o)
  simp only [hx', hw', hs']
  exact sum_mul_scale _ _ _

end Cert.QLinear

end
-- ==== Proof.Finite.lean ====
/-
  What the precondition says, entry by entry. The precondition is the conjunction of four tests, one per input
  array: every entry's absolute value is below +infinity. On the extended reals |v| = max v (-v), which is
  +infinity at both infinities, so an entry passing the test is a real number.
-/
import proofs.«178459_j43705587204740_2_alg».proof.Pre_finite_inputs
import proofs.«178459_j43705587204740_2_alg».proof.Proof.Spec
import Idealize.ShloMosaic.Lib.ReduceAll
import Idealize.ShloMosaic.Lib.ValueIdx
import Idealize.ShloMosaic.PureOps.Ideal.Laws

noncomputable section

namespace Cert.QLinear

open Idealize.ShloMosaic Cert.Pre_finite_inputs

/-- The rank-0 shape has one index. -/
instance : Subsingleton Cert.Pre_finite_inputs.S_.Idx := ⟨fun _ _ => funext fun d => d.elim0⟩

/-- The f32 word of +infinity is the top extended real. -/
theorem inf_word : Ideal.ofBits .f32 0x7F800000#32 = (⊤ : EReal) := by simp [Ideal.ofBits, Ideal.ieee]

/-- An extended real whose absolute value max v (-v) is below the top is a real number. -/
theorem real_of_abs_lt_top (v : EReal) (h : max v (-v) < ⊤) : ∃ r : ℝ, v = (r : EReal) := by
  induction v using EReal.rec with
  | bot => simp at h
  | top => simp at h
  | coe r => exact ⟨r, rfl⟩

/-- One entry's test: |x i| compared below the broadcast +infinity word gives 1 only at a real entry. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  refine real_of_abs_lt_top (x i) ?_
  by_contra hn
  simp [Ideal.cmp, hn] at h'

variable [Cert.Pre_finite_inputs.Facts]

/-- The precondition, all ones, makes every entry of every input a real number. -/
theorem finite_of_pre (x w : FVec Ideal S4096x4096 .f32) (s b : FVec Ideal S4096 .f32)
    (h : Cert.Pre_finite_inputs.fn (F := Ideal) x w s b = fun _ => 1#1) :
    IsReal x ∧ IsReal w ∧ IsReal s ∧ IsReal b := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_test x _ i (Host.reduce_andi_all _ _ _ _ _ h1 i),
    fun i => real_of_test w _ i (Host.reduce_andi_all _ _ _ _ _ h2 i),
    fun i => real_of_test s _ i (Host.reduce_andi_all _ _ _ _ _ h3 i),
    fun i => real_of_test b _ i (Host.reduce_andi_all _ _ _ _ _ h4 i)⟩

end Cert.QLinear

end
-- ==== Proof.RefSpec.lean ====
/-
  The reference computes the specification. Its seven host operations, read at an index (t, o): the scale s is
  broadcast to a column and then across each row of w, so the scaled weight at (o, k) is w[o, k] * s[o]; the
  contraction of x with it over the second axis of both is sum_k x[t, k] * (w[o, k] * s[o]); the bias is broadcast
  to a row and then down the rows and added: + b[o]. When every entry is real the factor s[o] leaves the sum,
  and that is the specification.
-/
import proofs.«178459_j43705587204740_2_alg».proof.Proof.Gen.ReferenceIdeal.Read
import proofs.«178459_j43705587204740_2_alg».proof.Proof.Spec

noncomputable section

namespace Cert.QLinear

open Cert.ReferenceIdeal Cert.ReferenceIdeal.Read Idealize.ShloMosaic Idealize.ShloMosaic.ValueIdx

/-- The reference's last stage, as a function of the four arguments, is the specification when x, w and s hold
    real numbers. -/
theorem ref_is_spec (x w : (⟨S4096x4096, .f32⟩ : BufTy).Contents (Elt Ideal)) (s b : (⟨S4096, .f32⟩ : BufTy).Contents (Elt Ideal))
    (hx : IsReal x) (hw : IsReal w) (hs : IsReal s) :
    val_main_v6 (F := Ideal) x w s b = qlinear x w s b := by
  funext i
  obtain ⟨t, o, rfl⟩ : ∃ (t o : Fin 4096), i = ix2 t o := ⟨i 0, i 1, eq_ix2 i⟩
  have e1 : ∀ k : Fin 4096, lidx_main_v3 (ix2 t o) k = ix2 t k := fun k => funext fun a => Fin.ext (by
    match a with | ⟨0, _⟩ => rfl | ⟨1, _⟩ => rfl)
  have e2 : ∀ k : Fin 4096, ridx_main_v3 (ix2 t o) k = ix2 o k := fun k => funext fun a => Fin.ext (by
    match a with | ⟨0, _⟩ => rfl | ⟨1, _⟩ => rfl)
  have e3 : ∀ k : Fin 4096, idx_main_v0 (idx_main_v1 (ix2 o k)) = ix1 o := fun k => funext fun a => Fin.ext (by
    match a with | ⟨0, _⟩ => rfl)
  have e4 : idx_main_v4 (idx_main_v5 (ix2 t o)) = ix1 o := funext fun a => Fin.ext (by
    match a with | ⟨0, _⟩ => rfl)
  rw [val_main_v6_apply, val_main_v3_apply, val_main_v5_apply, val_main_v4_apply]
  simp only [val_main_v2_apply, val_main_v1_apply, val_main_v0_apply, e1, e2, e3, e4, Ideal.mulf_def, Ideal.addf_def]
  exact congrArg (· + b (ix1 o)) (scale_out x w s hx hw hs t o)

end Cert.QLinear

end
-- ==== Proof.Payload.lean ====
/-
  The three values the kernel body stores, read at an index on the extended reals.
  * The reset value of the accumulator is 0 everywhere.
  * The accumulator update at (p, q) adds to the old entry the product of row p of the x block with row q of the
    w block: sum over r < 256 of xb[p, r] * wb[q, r]. (The two narrowings to bf16 are the identity on exact
    values, and the matrix product into a zero accumulator is that sum.)
  * The finished output at (p, q) is acc[p, q] * sb[0, q] + bb[0, q]: the one-row scale and bias blocks are
    broadcast down the rows.
-/
import proofs.«178459_j43705587204740_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The dimension numbers of the body's matrix product: both operands contract their second axis. -/
abbrev dd : DotDims S2048x256 S1024x256 S2048x1024 := dot_S2048x256_S1024x256_S2048x1024_1_1_0_0_n_n

/-- The reset value: zero at every index. -/
theorem zeros_apply (j : S2048x1024.Idx) : k0_pay1 (F := Ideal) j = 0 := by
  unfold k0_pay1
  rw [shapeCast_self]
  exact Ideal.ofBits_zero_f32

theorem lhs0 (i : S2048x1024.Idx) (k : dd.contr.Idx) : (dd.lhsIdx i k 0).val = (i 0).val := by
  unfold DotDims.lhsIdx
  rw [dif_neg (show ¬(0 : Fin S2048x256.rank) ∈ dd.lhsBatch by decide),
    dif_pos (show (0 : Fin S2048x256.rank) ∈ dd.lhsNonContracting by decide)]
  rfl

theorem lhs1 (i : S2048x1024.Idx) (k : dd.contr.Idx) : (dd.lhsIdx i k 1).val = (k ⟨0, by decide⟩).val :=
  dd.lhsIdx_val_of_single rfl i k

theorem rhs0 (i : S2048x1024.Idx) (k : dd.contr.Idx) : (dd.rhsIdx i k 0).val = (i 1).val := by
  unfold DotDims.rhsIdx
  rw [dif_neg (show ¬(0 : Fin S1024x256.rank) ∈ dd.rhsBatch by decide),
    dif_pos (show (0 : Fin S1024x256.rank) ∈ dd.rhsNonContracting by decide)]
  rfl

theorem rhs1 (i : S2048x1024.Idx) (k : dd.contr.Idx) : (dd.rhsIdx i k 1).val = (k ⟨0, by decide⟩).val :=
  dd.rhsIdx_val_of_single rfl i k

/-- The block product into a zero accumulator at (p, q): row p of the left block against row q of the right. -/
theorem product_apply (xb : FVec Ideal S2048x256 .bf16) (wb : FVec Ideal S1024x256 .bf16) (p : Fin 2048) (q : Fin 1024) :
    matmul dd none xb wb (constant S2048x1024 .f32 0x00000000#32) (ix2 p q)
      = ∑ r : Fin 256, xb (ix2 p r) * wb (ix2 q r) := by
  simp only [matmul]
  rw [Ideal.matmul_constant_zero_apply, ← Equiv.sum_comp (contrEquiv1 dd 256 rfl rfl).symm]
  refine Finset.sum_congr rfl fun r _ => ?_
  have hk := contrEquiv1_symm_val dd 256 rfl rfl r
  have el : dd.lhsIdx (ix2 p q) ((contrEquiv1 dd 256 rfl rfl).symm r) = ix2 p r := funext fun a => Fin.ext (by
    match a with
    | ⟨0, _⟩ => exact lhs0 _ _
    | ⟨1, _⟩ => exact (lhs1 _ _).trans hk)
  have er : dd.rhsIdx (ix2 p q) ((contrEquiv1 dd 256 rfl rfl).symm r) = ix2 q r := funext fun a => Fin.ext (by
    match a with
    | ⟨0, _⟩ => exact rhs0 _ _
    | ⟨1, _⟩ => exact (rhs1 _ _).trans hk)
  rw [el, er]

/-- The accumulator update at (p, q): the old entry plus this slab's product. -/
theorem update_apply (xb : Vec Ideal S2048x256 .f32) (wb : Vec Ideal S1024x256 .f32) (acc : Vec Ideal S2048x1024 .f32)
    (p : Fin 2048) (q : Fin 1024) :
    k0_pay2 (F := Ideal) xb wb acc (ix2 p q) = acc (ix2 p q) + ∑ r : Fin 256, xb (ix2 p r) * wb (ix2 q r) := by
  unfold k0_pay2
  rw [shapeCast_self, addf_apply]
  exact congrArg (acc (ix2 p q) + ·) (product_apply _ _ p q)

/-- The finished output at (p, q): the accumulator scaled by column q's scale, plus column q's bias. -/
theorem finish_apply (acc : Vec Ideal S2048x1024 .f32) (sb bb : Vec Ideal S1x1024 .f32) (p : Fin 2048) (q : Fin 1024) :
    k0_pay3 (F := Ideal) acc sb bb (ix2 p q) = acc (ix2 p q) * sb (ix2 (0 : Fin 1) q) + bb (ix2 (0 : Fin 1) q) := by
  unfold k0_pay3
  rw [addf_apply, mulf_apply, broadcastTo_1b_ab_apply, broadcastTo_1b_ab_apply, shapeCast_self, shapeCast_self]

end Cert.KernelIdeal.Payload

end
-- ==== Proof.Pieces.lean ====
/-
  What each of the body's three control cases leaves behind, as the stored values themselves. Every load and store
  of the body covers its whole buffer at offset zero, so a buffer read back after a store holds exactly the stored
  value:
  * first slab (k = 0): the accumulator is reset and then updated, so it ends at update(x block, w block, zeros);
  * a later slab: the accumulator ends at update(x block, w block, what the point before left);
  * the last slab (k = 15) also stores the output block: finish(the updated accumulator, scale block, bias block).
-/
import proofs.«178459_j43705587204740_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of every load and store of the body: zero on both axes. -/
theorem hz : (![0, 0] : Fin 2 → Nat) = fun _ => 0 := funext fun a => by fin_cases a <;> rfl

/-- First slab: the accumulator is left at the update of the zero block. -/
theorem scratch_A (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x256 .f32) (x1 : Vec F S1024x256 .f32) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x0 x1 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz]

/-- A middle slab: the accumulator is left at the update of what it held. -/
theorem scratch_B (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x256 .f32) (x1 : Vec F S1024x256 .f32) (x2 : Vec F S1x1024 .f32) (x3 : Vec F S1x1024 .f32) (xs0 : Vec F S2048x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz]

/-- The last slab: the accumulator likewise, -/
theorem scratch_C (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x256 .f32) (x1 : Vec F S1024x256 .f32) (x2 : Vec F S1x1024 .f32) (x3 : Vec F S1x1024 .f32) (xs0 : Vec F S2048x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz]

/-- and the output block is the finish of that updated accumulator with the scale and bias blocks. -/
theorem out_C (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x256 .f32) (x1 : Vec F S1024x256 .f32) (x2 : Vec F S1x1024 .f32) (x3 : Vec F S1x1024 .f32) (xs0 : Vec F S2048x1024 .f32) :
    out0_C_4 c i arg3 harg3 arg4 harg4 arg5 harg5 arg6 harg6 arg7 harg7 arg8 harg8 hc0 hc1 x0 x1 x2 x3 xs0 = k0_pay3 (k0_pay2 x0 x1 xs0) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg6.read_unread, harg8.read_unread, View.ld_unit_zero (S := S2048x256) hz, View.ld_unit_zero (S := S1024x256) hz, View.ld_unit_zero (S := S1x1024) hz, View.ld_unit_zero (S := S2048x1024) hz]

end Cert.KernelIdeal.Pieces

end
-- ==== Proof.Blocks.lean ====
/-
  Where each window's block sits in its array. The grid has 2 x 4 x 16 points, the last coordinate running
  fastest, so point n has row-block n / 64, column-block n / 16 mod 4 and slab n mod 16. At point n
  * the x block is rows [2048 * (n / 64), +2048) and columns [256 * (n mod 16), +256) of x,
  * the w block is rows [1024 * (n / 16 mod 4), +1024) and the same 256 columns of w,
  * the scale and bias blocks are columns [1024 * (n / 16 mod 4), +1024) of the one-row arrays that the two host
    reshapes make of s and b, so their entry (0, q) is entry 1024 * (n / 16 mod 4) + q of s and of b.
-/
import proofs.«178459_j43705587204740_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.ValueIdx
open Idealize.ShloMosaic.TcCoe Idealize.SL.Sem Idealize.ShloMosaic.StableHlo

variable {F : FTy → Type} [FloatOps F]
variable (m : (ℓ : Loc nD τ sig) → Buf (Elt F) ℓ)

/-- The array row that row p of point n's x block (and of its output block) is. -/
def rowOf (n : ℕ) (p : Fin 2048) : Fin 4096 :=
  ⟨n / 64 % 2 * 2048 + p.val, by have := p.isLt; have := Nat.mod_lt (n / 64) (by decide : 0 < 2); omega⟩
/-- The array column that column q of point n's output block is; also the row of w, and the entry of s and b. -/
def colOf (n : ℕ) (q : Fin 1024) : Fin 4096 :=
  ⟨n / 16 % 4 * 1024 + q.val, by have := q.isLt; have := Nat.mod_lt (n / 16) (by decide : 0 < 4); omega⟩
/-- The contraction index that position r of point n's slab is. -/
def depthOf (n : ℕ) (r : Fin 256) : Fin 4096 :=
  ⟨n % 16 * 256 + r.val, by have := r.isLt; have := Nat.mod_lt n (by decide : 0 < 16); omega⟩

/-- The five printed index maps in closed form, decided over the 128 points. -/
theorem idx_facts : ∀ t : Fin cfg0.N,
    win0_0.index t (0 : Fin 2) = t.val / 64 % 2 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4
    ∧ win0_3.index t (0 : Fin 2) = 0 ∧ win0_3.index t (1 : Fin 2) = t.val / 16 % 4
    ∧ win0_4.index t (0 : Fin 2) = t.val / 64 % 2 ∧ win0_4.index t (1 : Fin 2) = t.val / 16 % 4 :=
  (by decide +kernel : ∀ t : Fin grid0.N, _)

/-- The x block at point t, entry (p, r). -/
theorem xblk_apply (c : Dev nD) (t : Fin cfg0.N) (p : Fin 2048) (r : Fin 256) :
    (iblk m c 0 t : Vec F S2048x256 .f32) (ix2 p r)
      = m ((c : Thread nD τ).loc main_arg0) (ix2 (rowOf t.val p) (depthOf t.val r)) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 2048 + 1 * p.val = t.val / 64 % 2 * 2048 + p.val; rw [e0]; omega
  | ⟨1, _⟩ => show win0_0.index t 1 * 256 + 1 * r.val = t.val % 16 * 256 + r.val; rw [e1]; omega

/-- The w block at point t, entry (q, r). -/
theorem wblk_apply (c : Dev nD) (t : Fin cfg0.N) (q : Fin 1024) (r : Fin 256) :
    (iblk m c 1 t : Vec F S1024x256 .f32) (ix2 q r)
      = m ((c : Thread nD τ).loc main_arg1) (ix2 (colOf t.val q) (depthOf t.val r)) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t 0 * 1024 + 1 * q.val = t.val / 16 % 4 * 1024 + q.val; rw [e0]; omega
  | ⟨1, _⟩ => show win0_1.index t 1 * 256 + 1 * r.val = t.val % 16 * 256 + r.val; rw [e1]; omega

/-- The one-row scale array the region finds is the host reshape of s; -/
theorem V_scale (c : Dev nD) : (V m c main_v0 : S1x4096.Idx → Elt F .f32)
    = shapeCast S1x4096 (m ((c : Thread nD τ).loc main_arg2)) shapeCasts_S4096_S1x4096 := by
  dsimp only [V, hostOps0]; after_results; rfl

/-- and the one-row bias array the host reshape of b. -/
theorem V_bias (c : Dev nD) : (V m c main_v1 : S1x4096.Idx → Elt F .f32)
    = shapeCast S1x4096 (m ((c : Thread nD τ).loc main_arg3)) shapeCasts_S4096_S1x4096 := by
  dsimp only [V, hostOps0]; after_results; rfl

/-- The scale block at point t, entry (0, q). -/
theorem sblk_apply (c : Dev nD) (t : Fin cfg0.N) (q : Fin 1024) :
    (iblk m c 2 t : Vec F S1x1024 .f32) (ix2 (0 : Fin 1) q)
      = m ((c : Thread nD τ).loc main_arg2) (ix1 (colOf t.val q)) := by
  obtain ⟨-, -, -, -, e0, e1, -⟩ := idx_facts t
  unfold iblk
  rw [View.read_apply]
  show V m c main_v0 _ = _
  rw [V_scale, ← shapeCast_a_1a_apply (m ((c : Thread nD τ).loc main_arg2)) shapeCasts_S4096_S1x4096 (0 : Fin 1) (colOf t.val q)]
  congr 1
  funext a
  apply Fin.ext
  match a with
  | ⟨0, _⟩ => show win0_2.index t 0 * 1 + 1 * 0 = 0; rw [e0]
  | ⟨1, _⟩ => show win0_2.index t 1 * 1024 + 1 * q.val = t.val / 16 % 4 * 1024 + q.val; rw [e1]; omega

/-- The bias block at point t, entry (0, q). -/
theorem bblk_apply (c : Dev nD) (t : Fin cfg0.N) (q : Fin 1024) :
    (iblk m c 3 t : Vec F S1x1024 .f32) (ix2 (0 : Fin 1) q)
      = m ((c : Thread nD τ).loc main_arg3) (ix1 (colOf t.val q)) := by
  obtain ⟨-, -, -, -, -, -, e0, e1, -⟩ := idx_facts t
  unfold iblk
  rw [View.read_apply]
  show V m c main_v1 _ = _
  rw [V_bias, ← shapeCast_a_1a_apply (m ((c : Thread nD τ).loc main_arg3)) shapeCasts_S4096_S1x4096 (0 : Fin 1) (colOf t.val q)]
  congr 1
  funext a
  apply Fin.ext
  match a with
  | ⟨0, _⟩ => show win0_3.index t 0 * 1 + 1 * 0 = 0; rw [e0]
  | ⟨1, _⟩ => show win0_3.index t 1 * 1024 + 1 * q.val = t.val / 16 % 4 * 1024 + q.val; rw [e1]; omega

end Cert.KernelIdeal.Blocks

end
-- ==== Proof.Accum.lean ====
/-
  The accumulator after the last slab. Along a run of 16 consecutive points (one output block, slabs k = 0 .. 15)
  the accumulator is reset to 0 + (slab 0's product) and then each later point adds its slab's product to what the
  point before left. So after the run's last point its entry (p, q) is
      0 + sum over the 16 slabs s of sum over r < 256 of xblock_s[p, r] * wblock_s[q, r].
  Slab s of the run holds columns 256 * s .. 256 * s + 255 of the same rows of x and of w, so the double sum
  runs once over all 4096 columns: it is sum over k < 4096 of x[row, k] * w[col, k].
-/
import proofs.«178459_j43705587204740_2_alg».proof.Proof.Gen.KernelIdeal.Value
import proofs.«178459_j43705587204740_2_alg».proof.Proof.Spec
import proofs.«178459_j43705587204740_2_alg».proof.Proof.Payload
import proofs.«178459_j43705587204740_2_alg».proof.Proof.Pieces
import proofs.«178459_j43705587204740_2_alg».proof.Proof.Blocks

noncomputable section

namespace Cert.KernelIdeal.Accum

open Cert.KernelIdeal Cert.KernelIdeal.Gen Idealize.ShloMosaic Idealize.ShloMosaic.ValueIdx
open Idealize.ShloMosaic.TcCoe Idealize.SL.Sem
open Cert.KernelIdeal.Blocks Cert.KernelIdeal.Payload Cert.KernelIdeal.Pieces Cert.QLinear

variable (m : (ℓ : Loc nD τ sig) → Buf (Elt Ideal) ℓ)

/-! ## The four argument arrays and the four blocks at a point, as arrays of extended reals -/

def argX (c : Dev nD) : Mat := m ((c : Thread nD τ).loc main_arg0)
def argW (c : Dev nD) : Mat := m ((c : Thread nD τ).loc main_arg1)
def argS (c : Dev nD) : Row := m ((c : Thread nD τ).loc main_arg2)
def argB (c : Dev nD) : Row := m ((c : Thread nD τ).loc main_arg3)

def xblk (c : Dev nD) (t : Fin cfg0.N) : Vec Ideal S2048x256 .f32 := iblk m c 0 t
def wblk (c : Dev nD) (t : Fin cfg0.N) : Vec Ideal S1024x256 .f32 := iblk m c 1 t
def sblk (c : Dev nD) (t : Fin cfg0.N) : Vec Ideal S1x1024 .f32 := iblk m c 2 t
def bblk (c : Dev nD) (t : Fin cfg0.N) : Vec Ideal S1x1024 .f32 := iblk m c 3 t

theorem xblk_eq (c : Dev nD) (t : Fin cfg0.N) (p : Fin 2048) (r : Fin 256) :
    xblk m c t (ix2 p r) = argX m c (ix2 (rowOf t.val p) (depthOf t.val r)) := xblk_apply m c t p r
theorem wblk_eq (c : Dev nD) (t : Fin cfg0.N) (q : Fin 1024) (r : Fin 256) :
    wblk m c t (ix2 q r) = argW m c (ix2 (colOf t.val q) (depthOf t.val r)) := wblk_apply m c t q r
theorem sblk_eq (c : Dev nD) (t : Fin cfg0.N) (q : Fin 1024) :
    sblk m c t (ix2 (0 : Fin 1) q) = argS m c (ix1 (colOf t.val q)) := sblk_apply m c t q
theorem bblk_eq (c : Dev nD) (t : Fin cfg0.N) (q : Fin 1024) :
    bblk m c t (ix2 (0 : Fin 1) q) = argB m c (ix1 (colOf t.val q)) := bblk_apply m c t q

/-! ## One point's contribution, and the fold -/

/-- Point n's contribution to entry (p, q) of the accumulator: row p of its x block against row q of its w block
    (zero for a number past the grid, which no sum below ever reaches). -/
def slabAt (c : Dev nD) (n : ℕ) (p : Fin 2048) (q : Fin 1024) : EReal :=
  if h : n < cfg0.N then ∑ r : Fin 256, xblk m c ⟨n, h⟩ (ix2 p r) * wblk m c ⟨n, h⟩ (ix2 q r) else 0

/-- The same as a function of the accumulator's index. -/
def slab (c : Dev nD) (n : ℕ) (j : S2048x1024.Idx) : EReal := slabAt m c n (j 0) (j 1)

/-- The update at point t adds point t's contribution. -/
theorem update_at (c : Dev nD) (t : Fin cfg0.N) (acc : Vec Ideal S2048x1024 .f32) (p : Fin 2048) (q : Fin 1024) :
    k0_pay2 (F := Ideal) (iblk m c 0 t) (iblk m c 1 t) acc (ix2 p q) = acc (ix2 p q) + slabAt m c t.val p q := by
  refine (update_apply (xblk m c t) (wblk m c t) acc p q).trans ?_
  unfold slabAt
  rw [dif_pos t.isLt]

/-- At the first point of a run the accumulator is left at 0 + that point's contribution, whatever it held. -/
theorem step_first (c : Dev nD) (n : ℕ) (h : n < cfg0.N) (h0 : n % 16 = 0) (acc : Vec Ideal S2048x1024 .f32)
    (j : S2048x1024.Idx) : Cert.KernelIdeal.Value.scAt0_0 m c n h acc j = 0 + slab m c n j := by
  have h1 : ¬n % 16 = 15 := by omega
  obtain ⟨p, q, rfl⟩ : ∃ (p : Fin 2048) (q : Fin 1024), j = ix2 p q := ⟨j 0, j 1, eq_ix2 j⟩
  unfold Cert.KernelIdeal.Value.scAt0_0
  rw [dif_pos h0, dif_neg h1]
  refine (congrFun (scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩)) (ix2 p q)).trans ?_
  refine (update_at m c ⟨n, h⟩ (k0_pay1 (F := Ideal)) p q).trans ?_
  rw [zeros_apply]
  rfl

/-- At every other point of a run the accumulator gains that point's contribution. -/
theorem step_next (c : Dev nD) (n : ℕ) (h : n < cfg0.N) (h0 : ¬n % 16 = 0) (acc : Vec Ideal S2048x1024 .f32)
    (j : S2048x1024.Idx) : Cert.KernelIdeal.Value.scAt0_0 m c n h acc j = acc j + slab m c n j := by
  obtain ⟨p, q, rfl⟩ : ∃ (p : Fin 2048) (q : Fin 1024), j = ix2 p q := ⟨j 0, j 1, eq_ix2 j⟩
  unfold Cert.KernelIdeal.Value.scAt0_0
  rw [dif_neg h0]
  by_cases h1 : n % 16 = 15
  · rw [dif_pos h1]
    refine (congrFun (scratch_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩) acc) (ix2 p q)).trans ?_
    exact update_at m c ⟨n, h⟩ acc p q
  · rw [dif_neg h1]
    refine (congrFun (scratch_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩) acc) (ix2 p q)).trans ?_
    exact update_at m c ⟨n, h⟩ acc p q

/-- After the last point of a run the accumulator is 0 plus the 16 contributions of the run's points. -/
theorem acc_last (c : Dev nD) (t : Fin cfg0.N) (h15 : t.val % 16 = 15) (j : S2048x1024.Idx) :
    (outsAt0 m c t.val t.isLt).2 j = 0 + ∑ s ∈ Finset.range 16, slab m c (16 * (t.val / 16) + s) j := by
  have hN : cfg0.N = 128 := N_0
  have ht := t.isLt
  rw [Cert.KernelIdeal.Value.soutsAt0_0_eq m c t]
  refine (Pipeline.accAt_add_apply (N := cfg0.N) (ι := S2048x1024.Idx) (β := EReal)
    (fun n h => Cert.KernelIdeal.Value.scAt0_0 m c n h (VS0_0.read (Elt Ideal) VS0_0.junk))
    (Cert.KernelIdeal.Value.scAt0_0 m c) (fun _ => 0) (slab m c) (16 * (t.val / 16)) 15
    (fun h i => step_first m c _ h (by omega) _ i)
    (fun n h acc i hb he => step_next m c n h (by omega) acc i)
    (t.val % 16) (by omega) (by omega) j).trans ?_
  rw [h15]

/-- The array's entries behind point n's blocks. -/
theorem slabAt_eq (c : Dev nD) (n : ℕ) (h : n < cfg0.N) (p : Fin 2048) (q : Fin 1024) :
    slabAt m c n p q = ∑ r : Fin 256,
      argX m c (ix2 (rowOf n p) (depthOf n r)) * argW m c (ix2 (colOf n q) (depthOf n r)) := by
  unfold slabAt
  rw [dif_pos h]
  exact Finset.sum_congr rfl fun r _ => congrArg₂ (· * ·) (xblk_eq m c ⟨n, h⟩ p r) (wblk_eq m c ⟨n, h⟩ q r)

/-- Term k of the product of row a of x with row b of w, as a function of a natural number (zero past 4096). -/
def term (c : Dev nD) (a b : Fin 4096) (k : ℕ) : EReal :=
  if hk : k < 4096 then argX m c (ix2 a ⟨k, hk⟩) * argW m c (ix2 b ⟨k, hk⟩) else 0

theorem term_fin (c : Dev nD) (a b : Fin 4096) (k : Fin 4096) :
    term m c a b k.val = argX m c (ix2 a k) * argW m c (ix2 b k) := dif_pos k.isLt

theorem term_lt (c : Dev nD) (a b : Fin 4096) (k : ℕ) (hk : k < 4096) :
    term m c a b k = argX m c (ix2 a ⟨k, hk⟩) * argW m c (ix2 b ⟨k, hk⟩) := dif_pos hk

/-- After the last point of a run, entry (p, q) of the accumulator is the whole product of the block's row of x
    with the block's row of w. -/
theorem acc_total (c : Dev nD) (t : Fin cfg0.N) (h15 : t.val % 16 = 15) (p : Fin 2048) (q : Fin 1024) :
    (outsAt0 m c t.val t.isLt).2 (ix2 p q)
      = ∑ k : Fin 4096, argX m c (ix2 (rowOf t.val p) k) * argW m c (ix2 (colOf t.val q) k) := by
  have hN : cfg0.N = 128 := N_0
  have ht := t.isLt
  rw [acc_last m c t h15 (ix2 p q), zero_add]
  rw [← Finset.sum_congr rfl (fun k _ => term_fin m c (rowOf t.val p) (colOf t.val q) k),
    ← sum_slabs (term m c (rowOf t.val p) (colOf t.val q))]
  refine Finset.sum_congr rfl fun s hs => ?_
  have hs' : s < 16 := Finset.mem_range.mp hs
  have hb : 16 * (t.val / 16) + s < cfg0.N := by omega
  show slabAt m c (16 * (t.val / 16) + s) p q = _
  rw [slabAt_eq m c _ hb p q]
  refine Finset.sum_congr rfl fun r _ => ?_
  have hr := r.isLt
  have hk : 256 * s + r.val < 4096 := by omega
  have e1 : rowOf (16 * (t.val / 16) + s) p = rowOf t.val p := Fin.ext (by
    show (16 * (t.val / 16) + s) / 64 % 2 * 2048 + p.val = t.val / 64 % 2 * 2048 + p.val; omega)
  have e2 : colOf (16 * (t.val / 16) + s) q = colOf t.val q := Fin.ext (by
    show (16 * (t.val / 16) + s) / 16 % 4 * 1024 + q.val = t.val / 16 % 4 * 1024 + q.val; omega)
  have e3 : depthOf (16 * (t.val / 16) + s) r = ⟨256 * s + r.val, hk⟩ := Fin.ext (by
    show (16 * (t.val / 16) + s) % 16 * 256 + r.val = 256 * s + r.val; omega)
  rw [e1, e2, e3]
  exact (term_lt m c (rowOf t.val p) (colOf t.val q) (256 * s + r.val) hk).symm

end Cert.KernelIdeal.Accum

end
-- ==== Proof.Final.lean ====
/-
  The kernel's result array is the specification of its four arguments.
  Only the last point of each run of 16 writes an output block back. What it writes, at entry (p, q), is
  (the finished accumulator) * scale + bias = (sum_k x[row, k] * w[col, k]) * s[col] + b[col], where (row, col) is
  the place of (p, q) in the array: the specification read through the block. The 8 written blocks (2 row blocks
  by 4 column blocks of 2048 x 1024) tile the 4096 x 4096 array: entry (a, b) lies in the block written by point
  64 * (a / 2048) + 16 * (b / 1024) + 15. So the array ends holding the specification everywhere.
-/
import proofs.«178459_j43705587204740_2_alg».proof.Proof.Accum

noncomputable section

namespace Cert.KernelIdeal.Final

open Cert.KernelIdeal Cert.KernelIdeal.Gen Idealize.ShloMosaic Idealize.ShloMosaic.ValueIdx
open Idealize.ShloMosaic.TcCoe Idealize.SL.Sem
open Idealize.ShloMosaic.Pipeline (Dat)
open Cert.KernelIdeal.Blocks Cert.KernelIdeal.Payload Cert.KernelIdeal.Pieces Cert.KernelIdeal.Accum Cert.QLinear

variable (m : (ℓ : Loc nD τ sig) → Buf (Elt Ideal) ℓ) (ρ : Dev nD → PrngReg)

/-- The specification of the argument arrays as launched, as contents of the result array. -/
abbrev result (c : Dev nD) : Buf (Elt Ideal) ((c : Thread nD τ).loc main_v2) :=
  qlinear (m ((c : Thread nD τ).loc main_arg0)) (m ((c : Thread nD τ).loc main_arg1)) (m ((c : Thread nD τ).loc main_arg2)) (m ((c : Thread nD τ).loc main_arg3))

/-- At a last-slab point, the stored output block is the finish of the accumulator the same point leaves:
    entry (p, q) of the one is entry (p, q) of the other times the scale block's entry q plus the bias block's. -/
theorem finish_at (c : Dev nD) (t : Fin cfg0.N) (hc0 : ¬cond0_0 (grid0.coords t)) (hc1 : cond0_1 (grid0.coords t))
    (xs0 : Vec Ideal S2048x1024 .f32) (p : Fin 2048) (q : Fin 1024) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0 (ix2 p q)
      = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0 (ix2 p q) * sblk m c t (ix2 (0 : Fin 1) q)
        + bblk m c t (ix2 (0 : Fin 1) q) := by
  refine (congrFun (out_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0) (ix2 p q)).trans ?_
  refine (finish_apply (k0_pay2 (F := Ideal) (iblk m c 0 t) (iblk m c 1 t) xs0) (sblk m c t) (bblk m c t) p q).trans ?_
  rw [congrFun (scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0) (ix2 p q)]

/-- The same for any pair equal to that point's (output block, accumulator). -/
theorem finish_pair (c : Dev nD) (t : Fin cfg0.N) (hc0 : ¬cond0_0 (grid0.coords t)) (hc1 : cond0_1 (grid0.coords t))
    (xs0 : Vec Ideal S2048x1024 .f32) (pr : Vec Ideal S2048x1024 .f32 × Vec Ideal S2048x1024 .f32)
    (hpr : pr = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0))
    (p : Fin 2048) (q : Fin 1024) :
    pr.1 (ix2 p q) = pr.2 (ix2 p q) * sblk m c t (ix2 (0 : Fin 1) q) + bblk m c t (ix2 (0 : Fin 1) q) := by
  subst hpr
  dsimp only
  exact finish_at m c t hc0 hc1 xs0 p q

/-- Entry (p, q) of the block a last-slab point stores is the specification at that entry's place in the array. -/
theorem out_entry (c : Dev nD) (t : Fin cfg0.N) (h15 : t.val % 16 = 15) (p : Fin 2048) (q : Fin 1024) :
    (outsAt0 m c t.val t.isLt).1 (ix2 p q) = result m c (ix2 (rowOf t.val p) (colOf t.val q)) := by
  have h0 : ¬t.val % 16 = 0 := by omega
  refine (finish_pair m c t _ _ _ _ (outsAt0_C m c t h0 h15) p q).trans ?_
  rw [acc_total m c t h15 p q, sblk_eq m c t q, bblk_eq m c t q]
  rfl

/-- What a writing point writes back is its block of the specification. -/
theorem flushed_eq (c : Dev nD) (t : Fin cfg0.N) (hf : (cfg0.win 4).flush t = true) :
    (dats m 0 c).flushed 4 t = ((cfg0.win 4).blk t).view.read (Elt Ideal) (result m c) := by
  have h15 : t.val % 16 = 15 := (flush0_4 t).mp hf
  obtain ⟨-, -, -, -, -, -, -, -, e0, e1⟩ := idx_facts t
  rw [Cert.KernelIdeal.Value.flushed4]
  funext j
  show (outsAt0 m c t.val t.isLt).1 j = result m c (((cfg0.win 4).blk t).view.emb j)
  have hj : ((cfg0.win 4).blk t).view.emb j = ix2 (rowOf t.val (j 0)) (colOf t.val (j 1)) := by
    funext a
    apply Fin.ext
    match a with
    | ⟨0, _⟩ => show win0_4.index t 0 * 2048 + 1 * (j 0).val = t.val / 64 % 2 * 2048 + (j 0).val; rw [e0]; omega
    | ⟨1, _⟩ => show win0_4.index t 1 * 1024 + 1 * (j 1).val = t.val / 16 % 4 * 1024 + (j 1).val; rw [e1]; omega
  rw [hj]
  exact (congrArg (outsAt0 m c t.val t.isLt).1 (eq_ix2 (n0 := 2048) (n1 := 1024) j)).trans (out_entry m c t h15 (j 0) (j 1))

/-- An index of the array is in point t's output block iff each coordinate is in the block's range on its axis. -/
theorem mem_blk (t : Fin cfg0.N) (i : S4096x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v2).slice (win0_4.rect t)).set ↔ _
  rw [View.set_slice_whole, Rect.mem_set_unit]
  exact Iff.rfl

/-- Every entry of the array lies in the block some writing point writes. -/
theorem cover (i : S4096x4096.Idx) :
    ∃ t : Fin cfg0.N, (cfg0.win 4).flush t = true ∧ i ∈ ((cfg0.win 4).blk t).view.set := by
  have hN : cfg0.N = 128 := N_0
  have hi0 : (i 0).val < 4096 := (i 0).isLt
  have hi1 : (i 1).val < 4096 := (i 1).isLt
  obtain ⟨n, hn⟩ : ∃ n : ℕ, n = (i 0).val / 2048 * 64 + (i 1).val / 1024 * 16 + 15 := ⟨_, rfl⟩
  have hlt : n < cfg0.N := by omega
  have e0 : win0_4.index ⟨n, hlt⟩ (0 : Fin 2) = n / 64 % 2 := (idx_facts ⟨n, hlt⟩).2.2.2.2.2.2.2.2.1
  have e1 : win0_4.index ⟨n, hlt⟩ (1 : Fin 2) = n / 16 % 4 := (idx_facts ⟨n, hlt⟩).2.2.2.2.2.2.2.2.2
  refine ⟨⟨n, hlt⟩, (flush0_4 ⟨n, hlt⟩).mpr (by show n % 16 = 15; omega), ?_⟩
  rw [mem_blk]
  intro a
  match a with
  | ⟨0, _⟩ =>
    show win0_4.index ⟨n, hlt⟩ (0 : Fin 2) * 2048 ≤ (i 0).val ∧ (i 0).val < win0_4.index ⟨n, hlt⟩ (0 : Fin 2) * 2048 + 2048
    rw [e0]; omega
  | ⟨1, _⟩ =>
    show win0_4.index ⟨n, hlt⟩ (1 : Fin 2) * 1024 ≤ (i 1).val ∧ (i 1).val < win0_4.index ⟨n, hlt⟩ (1 : Fin 2) * 1024 + 1024
    rw [e1]; omega

/-- The result array after the run. -/
theorem final (c : Dev nD) : (dats m 0 c).arrAt 4 cfg0.N = result m c :=
  (dats m 0 c).arrAt_eq_of_cover 4 (result m c) (fun t hf => flushed_eq m c t hf) cover

/-- The run: every weakly fair execution ends with the result array at the specification and the arguments as
    launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Final

end
-- ==== Proof.lean ====
/-
  A quantized linear layer: out[t, o] = sum_i x[t, i] * (w[o, i] * s[o]) + b[o] over 4096 x 4096 arrays.

  The reference scales every weight by its row's scale s[o], contracts x with the scaled weights, and adds the
  bias. The kernel tiles the output in 2 x 4 blocks of 2048 x 1024 and the contraction in 16 slabs of 256: in
  each block it resets an accumulator at the first slab, adds each slab's product of the unscaled blocks, and at
  the last slab stores accumulator * s + b. On the extended reals both are (sum_i x[t, i] * w[o, i]) * s[o] + b[o]:
  * the kernel, because a sum taken slab by slab is the whole sum (only + is rearranged);
  * the reference, because a common factor leaves a sum of real numbers, and the precondition makes every input
    entry a real number (on the extended reals distributivity fails at infinities, so the precondition is used).
  The narrowing of the matrix product's operands to bf16 is the identity on exact values, so nothing of the
  kernel was rewritten by idealization: the preservation claim is trivial.

  Spec: the specification and the two laws. Finite: the precondition entry by entry. RefSpec: the reference is
  the specification. Payload, Pieces: the body's three stored values, and the three control cases as those values.
  Blocks: where each block sits in its array. Accum: the accumulator after a block's last slab. Final: the
  written blocks tile the array, so the kernel's result is the specification. Here: the five claims.
-/
import proofs.«178459_j43705587204740_2_alg».proof.Defs
import proofs.«178459_j43705587204740_2_alg».proof.Proof.Gen.Kernel
import proofs.«178459_j43705587204740_2_alg».proof.Proof.Gen.Kernel.Skeleton
import proofs.«178459_j43705587204740_2_alg».proof.Proof.Gen.Kernel.Launch
import proofs.«178459_j43705587204740_2_alg».proof.Proof.Gen.Kernel.Points
import proofs.«178459_j43705587204740_2_alg».proof.Proof.Gen.Kernel.Frame
import proofs.«178459_j43705587204740_2_alg».proof.Proof.Gen.KernelIdeal
import proofs.«178459_j43705587204740_2_alg».proof.Proof.Gen.KernelIdeal.Skeleton
import proofs.«178459_j43705587204740_2_alg».proof.Proof.Gen.KernelIdeal.Launch
import proofs.«178459_j43705587204740_2_alg».proof.Proof.Gen.KernelIdeal.Points
import proofs.«178459_j43705587204740_2_alg».proof.Proof.Gen.KernelIdeal.Frame
import proofs.«178459_j43705587204740_2_alg».proof.Proof.Gen.ReferenceIdeal
import proofs.«178459_j43705587204740_2_alg».proof.Proof.Gen.KernelIdeal.Value
import proofs.«178459_j43705587204740_2_alg».proof.Proof.Gen.ReferenceIdeal.Run
import proofs.«178459_j43705587204740_2_alg».proof.Proof.Gen.ReferenceIdeal.Read
import proofs.«178459_j43705587204740_2_alg».proof.Proof.Gen.Pre_finite_inputs
import proofs.«178459_j43705587204740_2_alg».proof.Proof.Finite
import proofs.«178459_j43705587204740_2_alg».proof.Proof.RefSpec
import proofs.«178459_j43705587204740_2_alg».proof.Proof.Final
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Idealization rewrote nothing in the kernel. -/
theorem preserves : Cert.preserves_Kernel_KernelIdeal := trivial

/-- From arguments that agree, the kernel's result array and the reference's both end at the specification of
    those arguments: the kernel's by the blocks tiling the array, the reference's by pulling the scale out of each
    sum, which the finiteness of the inputs allows. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hs, -⟩ := Cert.QLinear.finite_of_pre _ _ _ _ (hpre c)
  rw [(hagree c).1, (hagree c).2.1, (hagree c).2.2.1, (hagree c).2.2.2]
  exact (Cert.ReferenceIdeal.Read.val_main_v6_eq _ _ _ _).trans (Cert.QLinear.ref_is_spec _ _ _ _ hx hw hs)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
